-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S2x640000 : Shape := ⟨2, ![2, 640000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S256x2 .f32) (main_arg8 : FVec F S2 .f32) (main_v33 : IVec S_ 1) : IVec S_ 1 :=
  let main_v34 : FVec F S256x2 .f32 := Host.absf main_arg7
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x2 .f32) (main_arg8 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S128x256 .f32) (main_arg2 : FVec F S256 .f32) (main_arg3 : FVec F S256x256 .f32) (main_arg4 : FVec F S256 .f32) (main_arg5 : FVec F S256x256 .f32) (main_arg6 : FVec F S256 .f32) (main_arg7 : FVec F S256x2 .f32) (main_arg8 : FVec F S2 .f32) (main_arg9 : IVec S2x640000 32) (main_arg10 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S2x640000 : Shape := ⟨2, ![2, 640000]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x256 : Shape := ⟨2, ![50000, 256]⟩
abbrev S2000x128 : Shape := ⟨2, ![2000, 128]⟩
abbrev S2000x256 : Shape := ⟨2, ![2000, 256]⟩
abbrev S690000x256 : Shape := ⟨2, ![690000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 129
  | .vmem => 17
  | .smem => 0
  | _ => 0

abbrev hbmTy0_0 (i : Nat) : BufTy := match i % 128 with
  | 0 => ⟨S50000x128, .f32⟩
  | 1 => ⟨S128x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S256x2, .f32⟩
  | 8 => ⟨S2, .f32⟩
  | 9 => ⟨S2x640000, .i32⟩
  | 10 => ⟨S50000, .i32⟩
  | 11 => ⟨S50000, .i32⟩
  | 12 => ⟨S1x640000, .i32⟩
  | 13 => ⟨S640000, .i32⟩
  | 14 => ⟨S690000, .i32⟩
  | 15 => ⟨S1x640000, .i32⟩
  | 16 => ⟨S640000, .i32⟩
  | 17 => ⟨S690000, .i32⟩
  | 18 => ⟨S_, .f32⟩
  | 19 => ⟨S690000, .f32⟩
  | 20 => ⟨S_, .f32⟩
  | 21 => ⟨S50000, .f32⟩
  | 22 => ⟨S690000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S690000, .i32⟩
  | 34 => ⟨S690000, .i1⟩
  | 35 => ⟨S_, .i32⟩
  | 36 => ⟨S690000, .i32⟩
  | 37 => ⟨S690000, .i32⟩
  | 38 => ⟨S690000, .i32⟩
  | 39 => ⟨S690000x1, .i32⟩
  | 40 => ⟨S690000, .f32⟩
  | 41 => ⟨S_, .i32⟩
  | 42 => ⟨S690000, .i32⟩
  | 43 => ⟨S690000, .i1⟩
  | 44 => ⟨S_, .i32⟩
  | 45 => ⟨S690000, .i32⟩
  | 46 => ⟨S690000, .i32⟩
  | 47 => ⟨S690000, .i32⟩
  | 48 => ⟨S690000x1, .i32⟩
  | 49 => ⟨S690000, .f32⟩
  | 50 => ⟨S690000, .f32⟩
  | 51 => ⟨S690000x1, .f32⟩
  | 52 => ⟨S50000x128, .bf16⟩
  | 53 => ⟨S128x256, .bf16⟩
  | 54 => ⟨S256x256, .bf16⟩
  | 55 => ⟨S256x256, .bf16⟩
  | 56 => ⟨S50000x256, .f32⟩
  | 57 => ⟨S_, .i32⟩
  | 58 => ⟨S690000, .i32⟩
  | 59 => ⟨S690000, .i1⟩
  | 60 => ⟨S_, .i32⟩
  | 61 => ⟨S690000, .i32⟩
  | 62 => ⟨S690000, .i32⟩
  | 63 => ⟨S690000, .i32⟩
  | 64 => ⟨S690000x1, .i32⟩
  | 65 => ⟨S690000x256, .f32⟩
  | 66 => ⟨S690000x256, .f32⟩
  | 67 => ⟨S690000x256, .f32⟩
  | 68 => ⟨S_, .f32⟩
  | 69 => ⟨S50000x256, .f32⟩
  | 70 => ⟨S690000x1, .i32⟩
  | 71 => ⟨S50000x256, .f32⟩
  | 72 => ⟨S1x256, .f32⟩
  | 73 => ⟨S50000x256, .f32⟩
  | 74 => ⟨S_, .i32⟩
  | 75 => ⟨S690000, .i32⟩
  | 76 => ⟨S690000, .i1⟩
  | 77 => ⟨S_, .i32⟩
  | 78 => ⟨S690000, .i32⟩
  | 79 => ⟨S690000, .i32⟩
  | 80 => ⟨S690000, .i32⟩
  | 81 => ⟨S690000x1, .i32⟩
  | 82 => ⟨S690000x256, .f32⟩
  | 83 => ⟨S690000x256, .f32⟩
  | 84 => ⟨S690000x256, .f32⟩
  | 85 => ⟨S_, .f32⟩
  | 86 => ⟨S50000x256, .f32⟩
  | 87 => ⟨S690000x1, .i32⟩
  | 88 => ⟨S50000x256, .f32⟩
  | 89 => ⟨S1x256, .f32⟩
  | 90 => ⟨S50000x256, .f32⟩
  | 91 => ⟨S_, .i32⟩
  | 92 => ⟨S690000, .i32⟩
  | 93 => ⟨S690000, .i1⟩
  | 94 => ⟨S_, .i32⟩
  | 95 => ⟨S690000, .i32⟩
  | 96 => ⟨S690000, .i32⟩
  | 97 => ⟨S690000, .i32⟩
  | 98 => ⟨S690000x1, .i32⟩
  | 99 => ⟨S690000x256, .f32⟩
  | 100 => ⟨S690000x256, .f32⟩
  | 101 => ⟨S690000x256, .f32⟩
  | 102 => ⟨S_, .f32⟩
  | 103 => ⟨S50000x256, .f32⟩
  | 104 => ⟨S690000x1, .i32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S64x256, .f32⟩
  | 111 => ⟨S50000x1, .i32⟩
  | 112 => ⟨S64x256, .f32⟩
  | 113 => ⟨S_, .f32⟩
  | 114 => ⟨S50000, .f32⟩
  | 115 => ⟨S_, .f32⟩
  | 116 => ⟨S64, .f32⟩
  | 117 => ⟨S50000x1, .i32⟩
  | 118 => ⟨S64, .f32⟩
  | 119 => ⟨S_, .f32⟩
  | 120 => ⟨S64, .f32⟩
  | 121 => ⟨S64, .f32⟩
  | 122 => ⟨S64x1, .f32⟩
  | 123 => ⟨S64x256, .f32⟩
  | 124 => ⟨S64x256, .f32⟩
  | 125 => ⟨S64x2, .f32⟩
  | 126 => ⟨S1x2, .f32⟩
  | 127 => ⟨S64x2, .f32⟩
  | _ => ⟨S50000x128, .f32⟩

abbrev hbmTy0_1 (i : Nat) : BufTy := match i % 128 with
  | 0 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .bf16⟩
  | .local _ .vmem, ⟨1, _⟩ => ⟨S2000x128, .bf16⟩
  | .local _ .vmem, ⟨2, _⟩ => ⟨S128x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S1x256, .f32⟩
  | .local _ .vmem, ⟨14, _⟩ => ⟨S256x256, .bf16⟩
  | .local _ .vmem, ⟨15, _⟩ => ⟨S2000x256, .f32⟩
  | .local _ .vmem, ⟨16, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  bcast_S690000x1_S690000x256_0_1 : S690000x1.BroadcastsInDim S690000x256 (![0, 1] : Fin 2 → Fin S690000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S2000x128_S128x256_S2000x256_1_0_0_1_n_n_wf : DotDims.WF S2000x128 S128x256 S2000x256 [1] [0] [0] [1] [] []
  gather_S50000x256_S690000x1_S690000x256_1_0_n_n_0_1_1256_wf : GatherDims.WF S50000x256 S690000x1 S690000x256 [1] [0] [] [0] [] 1 ![1, 256]
  scatter_S50000x256_S690000x1_S690000x256_1_0_0_1_wf : ScatterDims.WF S50000x256 S690000x1 S690000x256 [1] [0] [0] 1
  dot_S2000x256_S256x256_S2000x256_1_0_0_1_n_n_wf : DotDims.WF S2000x256 S256x256 S2000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x2_S64x2_1_0_0_1_n_n_wf : DotDims.WF S64x256 S256x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S690000x1_S690000x256_1_0_n_n_0_1_1256 : GatherDims S50000x256 S690000x1 S690000x256 where
  offsetDims := [1]
  collapsedSliceDims := [0]
  operandBatchingDims := []
  startIndicesBatchingDims := []
  startIndexMap := [0]
  indexVectorDim := 1
  sliceSizes := ![1, 256]
  wf := gather_S50000x256_S690000x1_S690000x256_1_0_n_n_0_1_1256_wf
def scatter_S50000x256_S690000x1_S690000x256_1_0_0_1 : ScatterDims S50000x256 S690000x1 S690000x256 where
  updateWindowDims := [1]
  insertedWindowDims := [0]
  scatterDimsToOperandDims := [0]
  indexVectorDim := 1
  wf := scatter_S50000x256_S690000x1_S690000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

abbrev win0_0 : Pipeline.Window sig grid0 :=
  Pipeline.Window.ofSpec (Memref.whole main_v31) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S2x640000 : Shape := ⟨2, ![2, 640000]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x256 : Shape := ⟨2, ![50000, 256]⟩
abbrev S690000x256 : Shape := ⟨2, ![690000, 256]⟩
abbrev S1x256 : Shape := ⟨2, ![1, 256]⟩
abbrev S64x256 : Shape := ⟨2, ![64, 256]⟩
abbrev S50000x1 : Shape := ⟨2, ![50000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S128x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S256x2, .f32⟩
  | 8 => ⟨S2, .f32⟩
  | 9 => ⟨S2x640000, .i32⟩
  | 10 => ⟨S50000, .i32⟩
  | 11 => ⟨S50000, .i32⟩
  | 12 => ⟨S1x640000, .i32⟩
  | 13 => ⟨S640000, .i32⟩
  | 14 => ⟨S690000, .i32⟩
  | 15 => ⟨S1x640000, .i32⟩
  | 16 => ⟨S640000, .i32⟩
  | 17 => ⟨S690000, .i32⟩
  | 18 => ⟨S_, .f32⟩
  | 19 => ⟨S690000, .f32⟩
  | 20 => ⟨S_, .f32⟩
  | 21 => ⟨S50000, .f32⟩
  | 22 => ⟨S690000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S690000, .i32⟩
  | 34 => ⟨S690000, .i1⟩
  | 35 => ⟨S_, .i32⟩
  | 36 => ⟨S690000, .i32⟩
  | 37 => ⟨S690000, .i32⟩
  | 38 => ⟨S690000, .i32⟩
  | 39 => ⟨S690000x1, .i32⟩
  | 40 => ⟨S690000, .f32⟩
  | 41 => ⟨S_, .i32⟩
  | 42 => ⟨S690000, .i32⟩
  | 43 => ⟨S690000, .i1⟩
  | 44 => ⟨S_, .i32⟩
  | 45 => ⟨S690000, .i32⟩
  | 46 => ⟨S690000, .i32⟩
  | 47 => ⟨S690000, .i32⟩
  | 48 => ⟨S690000x1, .i32⟩
  | 49 => ⟨S690000, .f32⟩
  | 50 => ⟨S690000, .f32⟩
  | 51 => ⟨S50000x256, .f32⟩
  | 52 => ⟨S690000x1, .f32⟩
  | 53 => ⟨S_, .i32⟩
  | 54 => ⟨S690000, .i32⟩
  | 55 => ⟨S690000, .i1⟩
  | 56 => ⟨S_, .i32⟩
  | 57 => ⟨S690000, .i32⟩
  | 58 => ⟨S690000, .i32⟩
  | 59 => ⟨S690000, .i32⟩
  | 60 => ⟨S690000x1, .i32⟩
  | 61 => ⟨S690000x256, .f32⟩
  | 62 => ⟨S690000x256, .f32⟩
  | 63 => ⟨S690000x256, .f32⟩
  | 64 => ⟨S_, .f32⟩
  | 65 => ⟨S50000x256, .f32⟩
  | 66 => ⟨S690000x1, .i32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x256, .f32⟩
  | 75 => ⟨S690000x1, .f32⟩
  | 76 => ⟨S_, .i32⟩
  | 77 => ⟨S690000, .i32⟩
  | 78 => ⟨S690000, .i1⟩
  | 79 => ⟨S_, .i32⟩
  | 80 => ⟨S690000, .i32⟩
  | 81 => ⟨S690000, .i32⟩
  | 82 => ⟨S690000, .i32⟩
  | 83 => ⟨S690000x1, .i32⟩
  | 84 => ⟨S690000x256, .f32⟩
  | 85 => ⟨S690000x256, .f32⟩
  | 86 => ⟨S690000x256, .f32⟩
  | 87 => ⟨S_, .f32⟩
  | 88 => ⟨S50000x256, .f32⟩
  | 89 => ⟨S690000x1, .i32⟩
  | 90 => ⟨S50000x256, .f32⟩
  | 91 => ⟨S1x256, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S50000x256, .f32⟩
  | 98 => ⟨S690000x1, .f32⟩
  | 99 => ⟨S_, .i32⟩
  | 100 => ⟨S690000, .i32⟩
  | 101 => ⟨S690000, .i1⟩
  | 102 => ⟨S_, .i32⟩
  | 103 => ⟨S690000, .i32⟩
  | 104 => ⟨S690000, .i32⟩
  | 105 => ⟨S690000, .i32⟩
  | 106 => ⟨S690000x1, .i32⟩
  | 107 => ⟨S690000x256, .f32⟩
  | 108 => ⟨S690000x256, .f32⟩
  | 109 => ⟨S690000x256, .f32⟩
  | 110 => ⟨S_, .f32⟩
  | 111 => ⟨S50000x256, .f32⟩
  | 112 => ⟨S690000x1, .i32⟩
  | 113 => ⟨S50000x256, .f32⟩
  | 114 => ⟨S1x256, .f32⟩
  | 115 => ⟨S50000x256, .f32⟩
  | 116 => ⟨S50000x256, .f32⟩
  | 117 => ⟨S_, .f32⟩
  | 118 => ⟨S64x256, .f32⟩
  | 119 => ⟨S50000x1, .i32⟩
  | 120 => ⟨S64x256, .f32⟩
  | 121 => ⟨S_, .f32⟩
  | 122 => ⟨S50000, .f32⟩
  | 123 => ⟨S_, .f32⟩
  | 124 => ⟨S64, .f32⟩
  | 125 => ⟨S50000x1, .i32⟩
  | 126 => ⟨S64, .f32⟩
  | 127 => ⟨S_, .f32⟩
  | _ => ⟨S50000x128, .f32⟩

abbrev hbmTy0_1 (i : Nat) : BufTy := match i % 128 with
  | 0 => ⟨S64, .f32⟩
  | 1 => ⟨S64, .f32⟩
  | 2 => ⟨S64x1, .f32⟩
  | 3 => ⟨S64x256, .f32⟩
  | 4 => ⟨S64x256, .f32⟩
  | 5 => ⟨S64x2, .f32⟩
  | 6 => ⟨S1x2, .f32⟩
  | 7 => ⟨S64x2, .f32⟩
  | 8 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_12 : Ref sig .tc := ⟨.hbm, 99, rfl⟩
abbrev main_v68 : Ref sig .tc := ⟨.hbm, 100, rfl⟩
abbrev main_v69 : Ref sig .tc := ⟨.hbm, 101, rfl⟩
abbrev main_c_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x256_0_1 : S690000x1.BroadcastsInDim S690000x256 (![0, 1] : Fin 2 → Fin S690000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x256_S50000x256_1_0_0_1_n_n_wf : DotDims.WF S50000x128 S128x256 S50000x256 [1] [0] [0] [1] [] []
  gather_S50000x256_S690000x1_S690000x256_1_0_n_n_0_1_1256_wf : GatherDims.WF S50000x256 S690000x1 S690000x256 [1] [0] [] [0] [] 1 ![1, 256]
  scatter_S50000x256_S690000x1_S690000x256_1_0_0_1_wf : ScatterDims.WF S50000x256 S690000x1 S690000x256 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x256_S256x2_S64x2_1_0_0_1_n_n_wf : DotDims.WF S64x256 S256x2 S64x2 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S690000x1_S690000x256_1_0_n_n_0_1_1256 : GatherDims S50000x256 S690000x1 S690000x256 where
  offsetDims := [1]
  collapsedSliceDims := [0]
  operandBatchingDims := []
  startIndicesBatchingDims := []
  startIndexMap := [0]
  indexVectorDim := 1
  sliceSizes := ![1, 256]
  wf := gather_S50000x256_S690000x1_S690000x256_1_0_n_n_0_1_1256_wf
def scatter_S50000x256_S690000x1_S690000x256_1_0_0_1 : ScatterDims S50000x256 S690000x1 S690000x256 where
  updateWindowDims := [1]
  insertedWindowDims := [0]
  scatterDimsToOperandDims := [0]
  indexVectorDim := 1
  wf := scatter_S50000x256_S690000x1_S690000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

class Facts : Prop extends Facts₀ where

variable [Facts]
-- ==== Proof.KernelRun.lean ====
/-
  The idealized kernel's run with EVERY buffer named. The program is three pipelined regions among stretches of host
  operations; its buffer contents at each boundary are a fold from the launch memory (a stretch applies its operations,
  a region replaces its output array by what its write-backs leave). Every weakly fair execution terminates, without a
  fault, in a state whose every unscoped TensorCore buffer holds the last boundary's contents; in particular the
  result buffer holds the fold's value there, and the arguments hold what they were launched with.
-/
import proofs.«141086_j7172595384347_1_alg».proof.Proof.Gen.KernelIdeal.Frame

set_option maxRecDepth 16384

noncomputable section

namespace Cert.KernelIdeal.RunAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The run with the result buffer at the fold's value and the arguments as launched. -/
theorem run_result : θ_run defs (onTc (τ := τ) (main (F := F))) ⟨m, fun _ => 0, ρ⟩ (fun r => ∀ c : Dev nD,
      r.2.mem ((c.tc : Thread nD τ).loc main_v94) = W9 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v94 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)
    (run_all m ρ)

end Cert.KernelIdeal.RunAll

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.Kept.lean ====
/-
  What the buffers that outlive a region hold at each boundary of the idealized kernel's run.

  Before the first region the host computes, from the edge list alone, the source and target index vectors (the
  edges followed by one self-loop per node) and the per-edge weight d[src]·d[dst] laid out as a column, d the
  where(g > 0, rsqrt g, 0) of the target degrees g; it also changes the float format of the features and of the three
  weight matrices, which on the extended reals changes nothing. No later operation and no region writes any of
  these buffers, nor an argument: at every later boundary each still holds the value it was given — the same
  functions of the arguments that the reference computes (named here by the reference's own stages).
-/
import proofs.«141086_j7172595384347_1_alg».proof.Proof.Gen.KernelIdeal.Frame
import proofs.«141086_j7172595384347_1_alg».proof.Proof.ReadP
import proofs.«141086_j7172595384347_1_alg».proof.Proof.LibHostWalk

set_option maxRecDepth 16384

noncomputable section

namespace Cert.KernelIdeal.Walk

open Idealize.ShloMosaic Idealize.ShloMosaic.TcCoe Idealize.ShloMosaic.StableHlo Idealize.SL.Sem
open Cert.KernelIdeal Cert.KernelIdeal.Gen Cert.HostWalk Cert.ReferenceIdeal.ReadP

variable (m : (ℓ : Loc nD τ sig) → Buf (Elt Ideal) ℓ) (ρ : Dev nD → PrngReg) (c : Dev nD)

/-! ## The argument arrays as launched -/

abbrev A0 : (⟨Cert.ReferenceIdeal.S50000x128, .f32⟩ : BufTy).Contents (Elt Ideal) := m ((c : Thread nD τ).loc main_arg0)
abbrev A1 : (⟨Cert.ReferenceIdeal.S128x256, .f32⟩ : BufTy).Contents (Elt Ideal) := m ((c : Thread nD τ).loc main_arg1)
abbrev A2 : (⟨Cert.ReferenceIdeal.S256, .f32⟩ : BufTy).Contents (Elt Ideal) := m ((c : Thread nD τ).loc main_arg2)
abbrev A3 : (⟨Cert.ReferenceIdeal.S256x256, .f32⟩ : BufTy).Contents (Elt Ideal) := m ((c : Thread nD τ).loc main_arg3)
abbrev A4 : (⟨Cert.ReferenceIdeal.S256, .f32⟩ : BufTy).Contents (Elt Ideal) := m ((c : Thread nD τ).loc main_arg4)
abbrev A5 : (⟨Cert.ReferenceIdeal.S256x256, .f32⟩ : BufTy).Contents (Elt Ideal) := m ((c : Thread nD τ).loc main_arg5)
abbrev A6 : (⟨Cert.ReferenceIdeal.S256, .f32⟩ : BufTy).Contents (Elt Ideal) := m ((c : Thread nD τ).loc main_arg6)
abbrev A7 : (⟨Cert.ReferenceIdeal.S256x2, .f32⟩ : BufTy).Contents (Elt Ideal) := m ((c : Thread nD τ).loc main_arg7)
abbrev A8 : (⟨Cert.ReferenceIdeal.S2, .f32⟩ : BufTy).Contents (Elt Ideal) := m ((c : Thread nD τ).loc main_arg8)
abbrev A9 : (⟨Cert.ReferenceIdeal.S2x640000, .i32⟩ : BufTy).Contents (Elt Ideal) := m ((c : Thread nD τ).loc main_arg9)
abbrev A10 : (⟨Cert.ReferenceIdeal.S50000, .i32⟩ : BufTy).Contents (Elt Ideal) := m ((c : Thread nD τ).loc main_arg10)

/-! ## A region leaves every buffer that is not one of its arrays as it found it

    (the generated facts, restated so that one rewriting pass can use them: the reference is matched as a whole) -/

theorem w4_keep (b : Ref sig .tc) (hb : ∀ w, Pipeline.arrRef spec0 w ≠ b) :
    W4 m ρ c (no_index (Proc.devRef .tc b)) = W3 m ρ c (Proc.devRef .tc b) := W4_of_ne m ρ c b hb
theorem w6_keep (b : Ref sig .tc) (hb : ∀ w, Pipeline.arrRef spec1 w ≠ b) :
    W6 m ρ c (no_index (Proc.devRef .tc b)) = W5 m ρ c (Proc.devRef .tc b) := W6_of_ne m ρ c b hb
theorem w8_keep (b : Ref sig .tc) (hb : ∀ w, Pipeline.arrRef spec2 w ≠ b) :
    W8 m ρ c (no_index (Proc.devRef .tc b)) = W7 m ρ c (Proc.devRef .tc b) := W8_of_ne m ρ c b hb

/-- Reads a buffer through every stretch of host operations and every region that does not write it, back to the
    launch memory. -/
macro "keep" : tactic =>
  `(tactic| walk_back [W9, W7, W5, W3, W2, W1, hostOps0, hostOps0_1, hostOps0_2, hostOps1, hostOps2, hostOps3,
      w8_keep, w6_keep, w4_keep])

/-! ## At the first region's entry: the features and the first weight matrix in the other float format -/

theorem in0_v31 : W3 m ρ c (Proc.devRef .tc main_v31) = A0 m c := by keep <;> rfl
theorem in0_v32 : W3 m ρ c (Proc.devRef .tc main_v32) = A1 m c := by keep <;> rfl

/-! ## After the first region: the index vectors, the edge weights, the first bias -/

theorem k4_v3 : W4 m ρ c (Proc.devRef .tc main_v3) = val_main_v3 (F := Ideal) (A9 m c) := by keep <;> rfl
theorem k4_v6 : W4 m ρ c (Proc.devRef .tc main_v6) = val_main_v6 (F := Ideal) (A9 m c) := by keep <;> rfl
theorem k4_v30 : W4 m ρ c (Proc.devRef .tc main_v30) = val_main_v31 (F := Ideal) (A9 m c) := by keep <;> rfl
theorem k4_arg2 : W4 m ρ c (Proc.devRef .tc main_arg2) = A2 m c := by keep <;> rfl

/-! ## At the second region's entry: the second weight matrix -/

theorem k5_v33 : W5 m ρ c (Proc.devRef .tc main_v33) = A3 m c := by keep <;> rfl

/-! ## After the second region -/

theorem k6_v3 : W6 m ρ c (Proc.devRef .tc main_v3) = val_main_v3 (F := Ideal) (A9 m c) := by keep <;> rfl
theorem k6_v6 : W6 m ρ c (Proc.devRef .tc main_v6) = val_main_v6 (F := Ideal) (A9 m c) := by keep <;> rfl
theorem k6_v30 : W6 m ρ c (Proc.devRef .tc main_v30) = val_main_v31 (F := Ideal) (A9 m c) := by keep <;> rfl
theorem k6_arg4 : W6 m ρ c (Proc.devRef .tc main_arg4) = A4 m c := by keep <;> rfl

/-! ## At the third region's entry: the third weight matrix -/

theorem k7_v34 : W7 m ρ c (Proc.devRef .tc main_v34) = A5 m c := by keep <;> rfl

/-! ## After the third region -/

theorem k8_v3 : W8 m ρ c (Proc.devRef .tc main_v3) = val_main_v3 (F := Ideal) (A9 m c) := by keep <;> rfl
theorem k8_v6 : W8 m ρ c (Proc.devRef .tc main_v6) = val_main_v6 (F := Ideal) (A9 m c) := by keep <;> rfl
theorem k8_v30 : W8 m ρ c (Proc.devRef .tc main_v30) = val_main_v31 (F := Ideal) (A9 m c) := by keep <;> rfl
theorem k8_arg6 : W8 m ρ c (Proc.devRef .tc main_arg6) = A6 m c := by keep <;> rfl
theorem k8_arg7 : W8 m ρ c (Proc.devRef .tc main_arg7) = A7 m c := by keep <;> rfl
theorem k8_arg8 : W8 m ρ c (Proc.devRef .tc main_arg8) = A8 m c := by keep <;> rfl
theorem k8_arg10 : W8 m ρ c (Proc.devRef .tc main_arg10) = A10 m c := by keep <;> rfl

end Cert.KernelIdeal.Walk

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibWholeProduct.lean ====
/-
  The matrix product of an M×K array with a K×N array on the extended reals, as ONE function of the two arrays:
  entry (p, c) is Σ_{q < K} x[p, q] · w[q, c] (`mm`). The vector unit's product into a zero accumulator (whatever
  float formats its operands were cast to) and the host's dot_general (contract the left operand's axis 1 with the
  right operand's axis 0, no batch axes) are both this function, as whole arrays (`matmul_zero_eq`,
  `dotGeneral_eq`). An entry depends on one row of the left operand and one column of the right operand
  (`mm_eq_of_row_col`): two products of arrays of any heights and widths agree at a pair of entries whose row and
  column agree term by term — what a product computed a block of rows at a time needs. Any extents; no program.
-/
import proofs.«141086_j7172595384347_1_alg».proof.Proof.LibPlainDot

noncomputable section

open scoped BigOperators

namespace Cert.Product

open Idealize.ShloMosaic Idealize.ShloMosaic.ValueIdx Cert.PlainDot

/-- The product, entry by entry. -/
def mm {M K N : Nat} (x : (⟨2, ![M, K]⟩ : Shape).Idx → EReal) (w : (⟨2, ![K, N]⟩ : Shape).Idx → EReal) :
    (⟨2, ![M, N]⟩ : Shape).Idx → EReal :=
  fun i => ∑ q : Fin K, x (ix2 (i 0) q) * w (ix2 q (i 1))

theorem mm_apply {M K N : Nat} (x : (⟨2, ![M, K]⟩ : Shape).Idx → EReal) (w : (⟨2, ![K, N]⟩ : Shape).Idx → EReal)
    (p : Fin M) (c : Fin N) : mm x w (ix2 p c) = ∑ q : Fin K, x (ix2 p q) * w (ix2 q c) := rfl

/-- An entry of a product depends on one row of the left operand and one column of the right operand: two products,
    of arrays of any heights and widths, agree at a pair of entries whose row and column agree term by term. -/
theorem mm_eq_of_row_col {M K N M' N' : Nat}
    (x : (⟨2, ![M, K]⟩ : Shape).Idx → EReal) (w : (⟨2, ![K, N]⟩ : Shape).Idx → EReal)
    (x' : (⟨2, ![M', K]⟩ : Shape).Idx → EReal) (w' : (⟨2, ![K, N']⟩ : Shape).Idx → EReal)
    (i : (⟨2, ![M, N]⟩ : Shape).Idx) (i' : (⟨2, ![M', N']⟩ : Shape).Idx)
    (hx : ∀ q : Fin K, x (ix2 (i 0) q) = x' (ix2 (i' 0) q)) (hw : ∀ q : Fin K, w (ix2 q (i 1)) = w' (ix2 q (i' 1))) :
    mm x w i = mm x' w' i' :=
  Finset.sum_congr rfl fun q _ => by rw [hx q, hw q]

variable {M K N : Nat} {d : DotDims ⟨2, ![M, K]⟩ ⟨2, ![K, N]⟩ ⟨2, ![M, N]⟩}

/-- The host's dot_general of a plain product is `mm`. -/
theorem dotGeneral_eq (h : IsPlain d) (prec : Option ContractPrecision)
    (l : FVec Ideal ⟨2, ![M, K]⟩ .f32) (r : FVec Ideal ⟨2, ![K, N]⟩ .f32) :
    Host.dotGeneral d prec l r = mm l r := by
  funext i
  rw [eq_ix2 i]
  exact dotGeneral_apply h prec l r (i 0) (i 1)

/-- The vector unit's product into a zero accumulator is `mm`, whatever float formats the operands were cast to. -/
theorem matmul_zero_eq (h : IsPlain d) (prec : Option ContractPrecision) {φ₁ φ₂ : FTy}
    (l : FVec Ideal ⟨2, ![M, K]⟩ φ₁) (r : FVec Ideal ⟨2, ![K, N]⟩ φ₂) :
    matmul d prec l r (constant ⟨2, ![M, N]⟩ .f32 0x00000000#32) = mm (K := K) (fun i => l i) (fun i => r i) := by
  funext i
  rw [eq_ix2 i]
  exact matmul_zero_apply h prec l r (i 0) (i 1)

end Cert.Product

end
-- ==== Proof.Region0Value.lean ====
/-
  Region 0 of the idealized kernel: the product x · W1, computed 2000 rows at a time.

  Grid point t loads rows 2000 t … 2000 t + 1999 of the left operand (all 128 columns) and the whole right operand
  (128 × 256), multiplies them into a zero accumulator, and stores the 2000 × 256 result into the same rows of the
  output. An entry of a matrix product reads one row of the left operand and one column of the right one, so what
  point t writes back is exactly rows 2000 t … 2000 t + 1999 of the product of the two WHOLE arrays. The 25 blocks
  tile the output's 50000 rows; hence the output array ends holding the whole product of the arrays the region was
  entered with, whatever those are.
-/
import proofs.«141086_j7172595384347_1_alg».proof.Proof.Gen.KernelIdeal.Frame
import proofs.«141086_j7172595384347_1_alg».proof.Proof.LibWholeProduct
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat)
open Cert.KernelIdeal Cert.KernelIdeal.Gen Cert.Product

-- the region's entry contents: any
variable (V : (c : Dev nD) → (b : Ref sig .tc) → Buf (Elt Ideal) ((c : Thread nD τ).loc b))

theorem zero_off : (![0, 0] : Fin 2 → Nat) = fun _ => 0 := funext fun a => by fin_cases a <;> rfl

/-- The body's product contracts the left operand's columns with the right operand's rows. -/
theorem plain : PlainDot.IsPlain dot_S2000x128_S128x256_S2000x256_1_0_0_1_n_n := ⟨rfl, rfl, rfl, rfl, rfl, rfl⟩

/-- The body's payload is the product of the two loaded blocks. -/
theorem pay_eq (x0 : Vec Ideal S2000x128 .bf16) (x1 : Vec Ideal S128x256 .bf16) :
    k0_pay1 x0 x1 = mm (M := 2000) (K := 128) (N := 256) x0 x1 := by
  unfold k0_pay1
  rw [shapeCast_self, shapeCast_self]
  exact matmul_zero_eq plain none x0 x1

/-- The printed index maps over the grid: the left operand's block and the output's block are block row t, the
    right operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem idx_onto : ∀ q : Fin 25, ∃ t : Fin cfg0.N, t.val = q.val :=
  (by decide +kernel : ∀ q : Fin 25, ∃ t : Fin grid0.N, t.val = q.val)

/-- The whole product of the region's two input arrays. -/
abbrev whole (c : Dev nD) : S50000x256.Idx → EReal :=
  mm (M := 50000) (K := 128) (N := 256) (V c main_v31) (V c main_v32)

/-- WHAT POINT t WRITES BACK is block t of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero zero_off]
  simp only [View.ld_unit_zero (S := S2000x128) zero_off, View.ld_unit_zero (S := S128x256) zero_off]
  rw [pay_eq]
  obtain ⟨e0, e1, e2, e3, e4, e5⟩ := idx_facts t
  funext j
  show mm (M := 2000) (K := 128) (N := 256) (iblk0 V c 0 t) (iblk0 V c 1 t) j
    = mm (M := 50000) (K := 128) (N := 256) (V c main_v31) (V c main_v32) (((cfg0.win 2).blk t).view.emb j)
  refine mm_eq_of_row_col _ _ _ _ j _ (fun q => ?_) (fun q => ?_)
  · show V c main_v31 (((cfg0.win 0).blk t).view.emb (ix2 (j 0) q)) = V c main_v31 (ix2 ((((cfg0.win 2).blk t).view.emb j) 0) q)
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * q.val = q.val; omega
  · show V c main_v32 (((cfg0.win 1).blk t).view.emb (ix2 q (j 1))) = V c main_v32 (ix2 q ((((cfg0.win 2).blk t).view.emb j) 1))
    refine congrArg _ (funext fun a => Fin.ext ?_)
    match a with
    | ⟨0, _⟩ => show win0_1.index t (0 : Fin 2) * 128 + 1 * q.val = q.val; omega
    | ⟨1, _⟩ => show win0_1.index t (1 : Fin 2) * 256 + 1 * (j 1).val = win0_2.index t (1 : Fin 2) * 256 + 1 * (j 1).val; omega

/-- An index of the output is in point t's block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v35).slice (win0_2.rect t)).set ↔ _
  rw [View.set_slice_whole, Rect.mem_set_unit]
  exact Iff.rfl

/-- The 25 blocks of 2000 rows cover the output: row r is in block r / 2000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 2000, by omega⟩
  have ht' : t.val = (i 0).val / 2000 := ht
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE OUTPUT ARRAY after the region: the whole product of the two input arrays as the region found them. -/
theorem final (c : Dev nD) : (dat0 V c).arrAt 2 cfg0.N = whole V c :=
  (dat0 V c).arrAt_eq_of_cover 2 (whole V c) (fun t _ => flushed_eq V c t) (cover)

end Cert.KernelIdeal.Region0

end
-- ==== Proof.Stage1.lean ====
/-
  The first layer of the idealized kernel against the reference's.

  Region 0 leaves x · W1 in its output: the reference's first product, since the features and the weight matrix in the
  other float format are the same extended reals. The host operations that follow — gather the rows at the source
  indices, scale each by its edge weight, scatter-add into the target rows of a zero array — are, operation for
  operation, the reference's, applied to equal operands: the aggregated features are the reference's. The bias
  reshaped to a row, and the second weight matrix, are what the second region is then entered with.
-/
import proofs.«141086_j7172595384347_1_alg».proof.Proof.Kept
import proofs.«141086_j7172595384347_1_alg».proof.Proof.Region0Value
import proofs.«141086_j7172595384347_1_alg».proof.Proof.LibWholeProduct

set_option maxRecDepth 16384

noncomputable section

namespace Cert.KernelIdeal.Walk

open Idealize.ShloMosaic Idealize.ShloMosaic.TcCoe Idealize.ShloMosaic.StableHlo Idealize.ShloMosaic.ValueIdx Idealize.SL.Sem
open Cert.KernelIdeal Cert.KernelIdeal.Gen Cert.HostWalk Cert.ReferenceIdeal.ReadP

variable (m : (ℓ : Loc nD τ sig) → Buf (Elt Ideal) ℓ) (ρ : Dev nD → PrngReg) (c : Dev nD)

/-- The reference's first product contracts the features' columns with the weight matrix's rows. -/
theorem plainR1 : PlainDot.IsPlain Cert.ReferenceIdeal.dot_S50000x128_S128x256_S50000x256_1_0_0_1_n_n :=
  ⟨rfl, rfl, rfl, rfl, rfl, rfl⟩

/-- After region 0 its output holds x · W1, the reference's first product. -/
theorem w4_v35 : W4 m ρ c (Proc.devRef .tc main_v35) = val_main_v30 (F := Ideal) (A0 m c) (A1 m c) := by
  refine (W4_arr m ρ c 2).trans ((Region0.final (V3 m ρ) c).trans ?_)
  show Product.mm (M := 50000) (K := 128) (N := 256) (V3 m ρ c main_v31) (V3 m ρ c main_v32) = _
  rw [show V3 m ρ c main_v31 = A0 m c from in0_v31 m ρ c, show V3 m ρ c main_v32 = A1 m c from in0_v32 m ρ c]
  unfold val_main_v30
  exact (Product.dotGeneral_eq plainR1 none (A0 m c) (A1 m c)).symm

/-- The first layer's aggregated features are the reference's. -/
theorem w5_v47 : W5 m ρ c (Proc.devRef .tc main_v47) = val_main_v43 (F := Ideal) (A0 m c) (A1 m c) (A9 m c) := by
  walk_back [W5, hostOps1, w4_v35 m ρ c, k4_v3 m ρ c, k4_v6 m ρ c, k4_v30 m ρ c] <;> rfl

/-- The first bias, reshaped to a row. -/
theorem w5_v48 : W5 m ρ c (Proc.devRef .tc main_v48) = shapeCast S1x256 (A2 m c) shapeCasts_S256_S1x256 := by
  walk_back [W5, hostOps1, k4_arg2 m ρ c] <;> rfl

end Cert.KernelIdeal.Walk

end
-- ==== Proof.LibLayerOps.lean ====
/-
  The operations of a dense layer read at one entry, on the extended reals (general lemmas: any extents).

  * a product against a weight matrix that is TRANSPOSED FIRST, as an operation of its own, and then multiplied
    plainly (x · Wᵀ with W of shape N×K): entry (p, c) is Σ_q x[p, q] · W[c, q] — for the vector unit's matmul into
    a zero accumulator and for the host's dot_general alike;
  * a bias vector of length C laid out as a 1×C row and repeated down the rows, by either spelling (a shape cast
    followed by a broadcast; two broadcasts by dimension map): entry (p, c) is the bias's entry c — for every C,
    the one-column case C = 1 included (there the row's only coordinate is 0, which is what a unit axis is read at).
-/
import proofs.«141086_j7172595384347_1_alg».proof.Proof.LibPlainDot
import Idealize.ShloMosaic.Lib.ValueLayout
import Idealize.ShloMosaic.Lib.Pipeline.Value

noncomputable section

open scoped BigOperators

namespace Cert.LayerOps

open Idealize.ShloMosaic Idealize.ShloMosaic.ValueIdx

variable {M K N : Nat} {d : DotDims ⟨2, ![M, K]⟩ ⟨2, ![K, N]⟩ ⟨2, ![M, N]⟩}

/-- The vector unit's product against a transposed weight matrix, into a zero accumulator, at entry (p, c). -/
theorem matmul_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    matmul d prec l (transpose ⟨2, ![K, N]⟩ [1, 0] w ht) (constant ⟨2, ![M, N]⟩ .f32 0x00000000#32) (ix2 p c)
      = ∑ q : Fin K, l (ix2 p q) * w (ix2 c q) :=
  (PlainDot.matmul_zero_apply h prec l (transpose ⟨2, ![K, N]⟩ [1, 0] w ht) p c).trans
    (Finset.sum_congr rfl fun q _ => congrArg (l (ix2 p q) * ·) (transpose_ix2_apply w ht q c))

/-- The host's product against a transposed weight matrix, at entry (p, c). -/
theorem dotGeneral_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    Host.dotGeneral d prec l (transpose ⟨2, ![K, N]⟩ [1, 0] w ht) (ix2 p c)
      = ∑ q : Fin K, l (ix2 p q) * w (ix2 c q) :=
  (PlainDot.dotGeneral_apply h prec l (transpose ⟨2, ![K, N]⟩ [1, 0] w ht) p c).trans
    (Finset.sum_congr rfl fun q _ => congrArg (l (ix2 p q) * ·) (transpose_ix2_apply w ht q c))

/-- A bias cast to a row and broadcast down R rows, at entry (p, c): any C. -/
theorem bias_cast_rows {α : Type} {R C : Nat} (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) :=
  (broadcastTo_1b_ab_apply (shapeCast ⟨2, ![1, C]⟩ v hs) hb p c).trans (shapeCast_a_1a_apply v hs 0 c)

/-- A coordinate below C is what a broadcast reads on an axis of extent C: itself, or 0 when C = 1 (then it IS 0). -/
private theorem coord_or_zero {C : Nat} (c : Fin C) : c.val = if C = 1 then 0 else c.val := by
  split
  · have := c.isLt; omega
  · rfl

/-- A bias broadcast to a row and then down N rows, both by dimension map, at entry (n, c): any C. -/
theorem bias_bcast_rows {α : Type} {R C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (n : Fin R) (c : Fin C) :
    broadcastInDim ⟨2, ![R, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ => rfl
    | ⟨1, _⟩ => exact coord_or_zero c)).trans
  (broadcastInDim_apply ![1] h1 b (ix2 (0 : Fin 1) c) (ix1 c) (fun a => by
    match a with
    | ⟨0, _⟩ => exact coord_or_zero c))

end Cert.LayerOps

end
-- ==== Proof.LibHiddenLayer.lean ====
/-
  One hidden layer of the network on the extended reals, as whole-array functions of any extents.

  `hidden a b` adds the bias vector `b` to every row of the matrix `a` and takes the maximum with zero, entry by
  entry: entry (p, c) is max (a[p, c] + b[c]) 0. The layer's output is the product of that matrix with the weight
  matrix (`Cert.Product.mm`).

  Two spellings of the activation are both `hidden`:
  * the vector unit's — the bias as a 1×C row repeated down the rows, the zero a splat scalar; here the row is any
    1×C array whose entry (0, c) is b[c];
  * the host's — the bias broadcast to a 1×C row and then down the rows by dimension maps, the zero a rank-0
    constant broadcast over the array.

  An entry of `hidden a b` reads the same entry of `a` and one entry of `b`; so the rows of `hidden a b` that a block
  of rows of `a` gives are that block of rows of `hidden` of the whole matrix (`hidden_congr`).
-/
import proofs.«141086_j7172595384347_1_alg».proof.Proof.LibWholeProduct
import proofs.«141086_j7172595384347_1_alg».proof.Proof.LibLayerOps

noncomputable section

namespace Cert.Layer

open Idealize.ShloMosaic Idealize.ShloMosaic.ValueIdx

/-- relu(a + b): the bias `b` added to every row, then the maximum with zero. -/
def hidden {M C : Nat} (a : (⟨2, ![M, C]⟩ : Shape).Idx → EReal) (b : (⟨1, ![C]⟩ : Shape).Idx → EReal) :
    (⟨2, ![M, C]⟩ : Shape).Idx → EReal :=
  fun i => max (a i + b (ix1 (i 1))) (Ideal.ofBits .f32 0x00000000#32)

theorem hidden_apply {M C : Nat} (a : (⟨2, ![M, C]⟩ : Shape).Idx → EReal) (b : (⟨1, ![C]⟩ : Shape).Idx → EReal)
    (p : Fin M) (c : Fin C) :
    hidden a b (ix2 p c) = max (a (ix2 p c) + b (ix1 c)) (Ideal.ofBits .f32 0x00000000#32) := rfl

/-- Two matrices of any heights whose entries agree at a pair of positions in the same column, under biases that
    agree at that column, give the same activation there. -/
theorem hidden_congr {M M' C : Nat} (a : (⟨2, ![M, C]⟩ : Shape).Idx → EReal) (a' : (⟨2, ![M', C]⟩ : Shape).Idx → EReal)
    (b b' : (⟨1, ![C]⟩ : Shape).Idx → EReal) (p : Fin M) (p' : Fin M') (c : Fin C)
    (h : a (ix2 p c) = a' (ix2 p' c)) (hb : b (ix1 c) = b' (ix1 c)) :
    hidden a b (ix2 p c) = hidden a' b' (ix2 p' c) := by
  rw [hidden_apply, hidden_apply, h, hb]

/-- The vector unit's spelling: a 1×C row holding the bias, repeated down the rows; a splat zero. -/
theorem hidden_unit {M C : Nat} (a : FVec Ideal ⟨2, ![M, C]⟩ .f32) (row : FVec Ideal ⟨2, ![1, C]⟩ .f32)
    (b : (⟨1, ![C]⟩ : Shape).Idx → EReal) (hrow : ∀ c : Fin C, row (ix2 (0 : Fin 1) c) = b (ix1 c))
    (hb : (⟨2, ![1, C]⟩ : Shape).Broadcasts ⟨2, ![M, C]⟩) :
    maximumf (addf a (broadcastTo ⟨2, ![M, C]⟩ row hb))
        (broadcast ⟨2, ![M, C]⟩ (Scalar.ofBits (F := Ideal) .f32 0x00000000#32)) = hidden a b := by
  funext i
  rw [eq_ix2 i]
  show max (a (ix2 (i 0) (i 1)) + broadcastTo ⟨2, ![M, C]⟩ row hb (ix2 (i 0) (i 1))) _ = _
  rw [broadcastTo_1b_ab_apply row hb (i 0) (i 1), hrow (i 1)]
  rfl

/-- A rank-0 value broadcast over a matrix reads that value everywhere. -/
theorem splat_apply {α : Type} {M C : Nat} (dims : Fin 0 → Fin 2)
    (h0 : (⟨0, ![]⟩ : Shape).BroadcastsInDim ⟨2, ![M, C]⟩ dims) (x : (⟨0, ![]⟩ : Shape).Idx → α)
    (i : (⟨2, ![M, C]⟩ : Shape).Idx) : broadcastInDim ⟨2, ![M, C]⟩ dims h0 x i = x ix0 :=
  broadcastInDim_apply dims h0 x i ix0 (fun a => a.elim0)

/-- The host's spelling: the bias broadcast to a row and down the rows by dimension maps; a rank-0 zero
    broadcast over the array. -/
theorem hidden_host {M C : Nat} (a : FVec Ideal ⟨2, ![M, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![M, C]⟩ ![0, 1])
    (dims : Fin 0 → Fin 2) (h0 : (⟨0, ![]⟩ : Shape).BroadcastsInDim ⟨2, ![M, C]⟩ dims) :
    maximumf (addf a (broadcastInDim ⟨2, ![M, C]⟩ ![0, 1] h2 (broadcastInDim ⟨2, ![1, C]⟩ ![1] h1 b)))
        (broadcastInDim ⟨2, ![M, C]⟩ dims h0 (constant (F := Ideal) ⟨0, ![]⟩ .f32 0x00000000#32)) = hidden a b := by
  funext i
  rw [eq_ix2 i]
  show max (a (ix2 (i 0) (i 1))
      + broadcastInDim ⟨2, ![M, C]⟩ ![0, 1] h2 (broadcastInDim ⟨2, ![1, C]⟩ ![1] h1 b) (ix2 (i 0) (i 1)))
    (broadcastInDim ⟨2, ![M, C]⟩ dims h0 (constant (F := Ideal) ⟨0, ![]⟩ .f32 0x00000000#32) (ix2 (i 0) (i 1))) = _
  rw [LayerOps.bias_bcast_rows b h1 h2 (i 0) (i 1), splat_apply]
  rfl

/-- A length-C vector reshaped to a 1×C row holds the vector's entry c at (0, c). -/
theorem row_of_cast {C : Nat} (b : (⟨1, ![C]⟩ : Shape).Idx → EReal)
    (hs : (⟨1, ![C]⟩ : Shape).ShapeCasts ⟨2, ![1, C]⟩) (c : Fin C) :
    shapeCast ⟨2, ![1, C]⟩ b hs (ix2 (0 : Fin 1) c) = b (ix1 c) :=
  shapeCast_a_1a_apply b hs 0 c

end Cert.Layer

end
-- ==== Proof.Region1Value.lean ====
/-
  Region 1 of the idealized kernel: one hidden layer, relu(a + b) · W, computed 2000 rows at a time.

  Grid point t loads rows 2000 t … 2000 t + 1999 of the aggregated features a (256 columns), the whole bias row
  (1 × 256) and the whole weight matrix (256 × 256); it adds the bias row to every loaded row, takes the maximum with
  zero, multiplies by the weight matrix into a zero accumulator, and stores the 2000 × 256 result into the same rows
  of the output. An entry of the activation reads the same entry of a, and an entry of a product reads one row of its
  left operand; so what point t writes back is rows 2000 t … 2000 t + 1999 of relu(a + b) · W taken over the WHOLE
  arrays. The 25 blocks tile the output's 50000 rows; hence the output array ends holding that layer of the arrays the
  region was entered with, whatever those are.
-/
import proofs.«141086_j7172595384347_1_alg».proof.Proof.Gen.KernelIdeal.Frame
import proofs.«141086_j7172595384347_1_alg».proof.Proof.LibHiddenLayer
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat)
open Cert.KernelIdeal Cert.KernelIdeal.Gen Cert.Product

-- the region's entry contents: any
variable (V : (c : Dev nD) → (b : Ref sig .tc) → Buf (Elt Ideal) ((c : Thread nD τ).loc b))

theorem zero_off : (![0, 0] : Fin 2 → Nat) = fun _ => 0 := funext fun a => by fin_cases a <;> rfl

/-- The body's product contracts the left operand's columns with the right operand's rows. -/
theorem plain : PlainDot.IsPlain dot_S2000x256_S256x256_S2000x256_1_0_0_1_n_n := ⟨rfl, rfl, rfl, rfl, rfl, rfl⟩

/-- A 1 × 256 row read as a vector of length 256. -/
abbrev vecOf (row : S1x256.Idx → EReal) : S256.Idx → EReal := fun j => row (ix2 (0 : Fin 1) (j 0))

/-- The body's payload is the layer of its three loaded blocks. -/
theorem pay_eq (x0 : Vec Ideal S2000x256 .f32) (x1 : Vec Ideal S1x256 .f32) (x2 : Vec Ideal S256x256 .bf16) :
    k1_pay1 x0 x1 x2 = mm (M := 2000) (K := 256) (N := 256) (Layer.hidden x0 (vecOf x1)) x2 := by
  unfold k1_pay1
  dsimp only
  rw [shapeCast_self, shapeCast_self, shapeCast_self]
  refine (matmul_zero_eq plain none _ x2).trans ?_
  show mm (M := 2000) (K := 256) (N := 256) (maximumf (addf x0 (broadcastTo S2000x256 x1 broadcasts_S1x256_S2000x256))
      (broadcast S2000x256 (Scalar.ofBits (F := Ideal) .f32 0x00000000#32))) x2 = _
  rw [Layer.hidden_unit x0 x1 (vecOf x1) (fun c => rfl) broadcasts_S1x256_S2000x256]

/-- The printed index maps over the grid: the features' block and the output's block are block row t, the bias
    row's and the weight matrix's blocks are the whole arrays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row is some point's. -/
theorem idx_onto : ∀ q : Fin 25, ∃ t : Fin cfg1.N, t.val = q.val :=
  (by decide +kernel : ∀ q : Fin 25, ∃ t : Fin grid1.N, t.val = q.val)

/-- The layer of the region's three input arrays. -/
abbrev whole (c : Dev nD) : S50000x256.Idx → EReal :=
  mm (M := 50000) (K := 256) (N := 256) (Layer.hidden (V c main_v47) (vecOf (V c main_v48))) (V c main_v33)

/-- WHAT POINT t WRITES BACK is block t of the layer of the whole arrays. -/
theorem flushed_eq (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero zero_off]
  simp only [View.ld_unit_zero (S := S2000x256) zero_off, View.ld_unit_zero (S := S1x256) zero_off,
    View.ld_unit_zero (S := S256x256) zero_off]
  rw [pay_eq]
  obtain ⟨e0, e1, e2, e3, e4, e5, e6, e7⟩ := idx_facts t
  funext j
  show mm (M := 2000) (K := 256) (N := 256) (Layer.hidden (iblk1 V c 0 t) (vecOf (iblk1 V c 1 t))) (iblk1 V c 2 t) j
    = mm (M := 50000) (K := 256) (N := 256) (Layer.hidden (V c main_v47) (vecOf (V c main_v48))) (V c main_v33)
        (((cfg1.win 3).blk t).view.emb j)
  refine mm_eq_of_row_col _ _ _ _ j _ (fun q => ?_) (fun q => ?_)
  · refine Layer.hidden_congr _ _ _ _ (j 0) ((((cfg1.win 3).blk t).view.emb j) 0) q ?_ ?_
    · show V c main_v47 (((cfg1.win 0).blk t).view.emb (ix2 (j 0) q)) = V c main_v47 (ix2 ((((cfg1.win 3).blk t).view.emb j) 0) q)
      refine congrArg _ (funext fun a => Fin.ext ?_)
      match a with
      | ⟨0, _⟩ => show win1_0.index t (0 : Fin 2) * 2000 + 1 * (j 0).val = win1_3.index t (0 : Fin 2) * 2000 + 1 * (j 0).val; omega
      | ⟨1, _⟩ => show win1_0.index t (1 : Fin 2) * 256 + 1 * q.val = q.val; omega
    · show V c main_v48 (((cfg1.win 1).blk t).view.emb (ix2 (0 : Fin 1) q)) = V c main_v48 (ix2 (0 : Fin 1) q)
      refine congrArg _ (funext fun a => Fin.ext ?_)
      match a with
      | ⟨0, _⟩ => show win1_1.index t (0 : Fin 2) * 1 + 1 * 0 = 0; omega
      | ⟨1, _⟩ => show win1_1.index t (1 : Fin 2) * 256 + 1 * q.val = q.val; omega
  · show V c main_v33 (((cfg1.win 2).blk t).view.emb (ix2 q (j 1))) = V c main_v33 (ix2 q ((((cfg1.win 3).blk t).view.emb j) 1))
    refine congrArg _ (funext fun a => Fin.ext ?_)
    match a with
    | ⟨0, _⟩ => show win1_2.index t (0 : Fin 2) * 256 + 1 * q.val = q.val; omega
    | ⟨1, _⟩ => show win1_2.index t (1 : Fin 2) * 256 + 1 * (j 1).val = win1_3.index t (1 : Fin 2) * 256 + 1 * (j 1).val; omega

/-- An index of the output is in point t's block iff each coordinate is in the block's range on its axis. -/
theorem mem_blk (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v49).slice (win1_3.rect t)).set ↔ _
  rw [View.set_slice_whole, Rect.mem_set_unit]
  exact Iff.rfl

/-- The 25 blocks of 2000 rows cover the output: row r is in block r / 2000. -/
theorem cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ := idx_onto ⟨(i 0).val / 2000, by omega⟩
  have ht' : t.val = (i 0).val / 2000 := ht
  obtain ⟨e0, e1, e2, e3, e4, e5, e6, e7⟩ := idx_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- THE OUTPUT ARRAY after the region: the layer of the three input arrays as the region found them. -/
theorem final (c : Dev nD) : (dat1 V c).arrAt 3 cfg1.N = whole V c :=
  (dat1 V c).arrAt_eq_of_cover 3 (whole V c) (fun t _ => flushed_eq V c t) (cover)

end Cert.KernelIdeal.Region1

end
-- ==== Proof.Stage2.lean ====
/-
  The second layer of the idealized kernel against the reference's.

  Region 1 leaves relu(a + b1) · W2 in its output, a the first layer's aggregated features; the reference computes
  the same activation with the bias broadcast by dimension maps and the same product as one dot_general: equal
  arrays. The aggregation that follows is again the reference's, operation for operation, on equal operands.
-/
import proofs.«141086_j7172595384347_1_alg».proof.Proof.Stage1
import proofs.«141086_j7172595384347_1_alg».proof.Proof.Region1Value
import proofs.«141086_j7172595384347_1_alg».proof.Proof.LibHiddenLayer

set_option maxRecDepth 16384

noncomputable section

namespace Cert.KernelIdeal.Walk

open Idealize.ShloMosaic Idealize.ShloMosaic.TcCoe Idealize.ShloMosaic.StableHlo Idealize.ShloMosaic.ValueIdx Idealize.SL.Sem
open Cert.KernelIdeal Cert.KernelIdeal.Gen Cert.HostWalk Cert.ReferenceIdeal.ReadP

variable (m : (ℓ : Loc nD τ sig) → Buf (Elt Ideal) ℓ) (ρ : Dev nD → PrngReg) (c : Dev nD)

/-- The reference's hidden products contract the activations' columns with the weight matrix's rows. -/
theorem plainR2 : PlainDot.IsPlain Cert.ReferenceIdeal.dot_S50000x256_S256x256_S50000x256_1_0_0_1_n_n :=
  ⟨rfl, rfl, rfl, rfl, rfl, rfl⟩

/-- A bias vector reshaped to a row and read back as a vector is the vector. -/
theorem vecOf_cast (b : FVec Ideal S256 .f32) : Region1.vecOf (shapeCast S1x256 b shapeCasts_S256_S1x256) = b := by
  funext j
  rw [eq_ix1 j]
  exact Layer.row_of_cast b shapeCasts_S256_S1x256 (j 0)

/-- One hidden layer over whole arrays, with the bias as a reshaped row, is the reference's: its activation with
    the bias broadcast by dimension maps, then its dot_general. -/
theorem layer_eq (a : FVec Ideal S50000x256 .f32) (b : FVec Ideal S256 .f32) (w : FVec Ideal S256x256 .f32) :
    Product.mm (M := 50000) (K := 256) (N := 256)
        (Layer.hidden a (Region1.vecOf (shapeCast S1x256 b shapeCasts_S256_S1x256))) w
      = Host.dotGeneral Cert.ReferenceIdeal.dot_S50000x256_S256x256_S50000x256_1_0_0_1_n_n none
          (maximumf (addf a (broadcastInDim Cert.ReferenceIdeal.S50000x256 ![0, 1] Cert.ReferenceIdeal.Gen.bcast_S1x256_S50000x256_0_1
              (broadcastInDim Cert.ReferenceIdeal.S1x256 ![1] Cert.ReferenceIdeal.Gen.bcast_S256_S1x256_1 b)))
            (broadcastInDim Cert.ReferenceIdeal.S50000x256 ![] Cert.ReferenceIdeal.Gen.bcast_S_S50000x256
              (constant (F := Ideal) Cert.ReferenceIdeal.S_ .f32 0x00000000#32))) w := by
  rw [vecOf_cast, Layer.hidden_host a b Cert.ReferenceIdeal.Gen.bcast_S256_S1x256_1 Cert.ReferenceIdeal.Gen.bcast_S1x256_S50000x256_0_1
    ![] Cert.ReferenceIdeal.Gen.bcast_S_S50000x256]
  exact (Product.dotGeneral_eq plainR2 none _ w).symm

/-- After region 1 its output holds the reference's second product. -/
theorem w6_v49 : W6 m ρ c (Proc.devRef .tc main_v49)
    = val_main_v48 (F := Ideal) (A0 m c) (A1 m c) (A2 m c) (A3 m c) (A9 m c) := by
  refine (W6_arr m ρ c 3).trans ((Region1.final (V5 m ρ) c).trans ?_)
  show Product.mm (M := 50000) (K := 256) (N := 256)
    (Layer.hidden (V5 m ρ c main_v47) (Region1.vecOf (V5 m ρ c main_v48))) (V5 m ρ c main_v33) = _
  rw [show V5 m ρ c main_v47 = val_main_v43 (F := Ideal) (A0 m c) (A1 m c) (A9 m c) from w5_v47 m ρ c,
    show V5 m ρ c main_v48 = shapeCast S1x256 (A2 m c) shapeCasts_S256_S1x256 from w5_v48 m ρ c,
    show V5 m ρ c main_v33 = A3 m c from k5_v33 m ρ c]
  exact layer_eq _ (A2 m c) (A3 m c)

/-- The second layer's aggregated features are the reference's. -/
theorem w7_v61 : W7 m ρ c (Proc.devRef .tc main_v61)
    = val_main_v61 (F := Ideal) (A0 m c) (A1 m c) (A2 m c) (A3 m c) (A9 m c) := by
  walk_back [W7, hostOps2, w6_v49 m ρ c, k6_v3 m ρ c, k6_v6 m ρ c, k6_v30 m ρ c] <;> rfl

/-- The second bias, reshaped to a row. -/
theorem w7_v62 : W7 m ρ c (Proc.devRef .tc main_v62) = shapeCast S1x256 (A4 m c) shapeCasts_S256_S1x256 := by
  walk_back [W7, hostOps2, k6_arg4 m ρ c] <;> rfl

end Cert.KernelIdeal.Walk

end
-- ==== Proof.Region2Value.lean ====
/-
  Region 2 of the idealized kernel: one hidden layer, relu(a + b) · W, computed 2000 rows at a time.

  Grid point t loads rows 2000 t … 2000 t + 1999 of the aggregated features a (256 columns), the whole bias row
  (1 × 256) and the whole weight matrix (256 × 256); it adds the bias row to every loaded row, takes the maximum with
  zero, multiplies by the weight matrix into a zero accumulator, and stores the 2000 × 256 result into the same rows
  of the output. An entry of the activation reads the same entry of a, and an entry of a product reads one row of its
  left operand; so what point t writes back is rows 2000 t … 2000 t + 1999 of relu(a + b) · W taken over the WHOLE
  arrays. The 25 blocks tile the output's 50000 rows; hence the output array ends holding that layer of the arrays the
  region was entered with, whatever those are.
-/
import proofs.«141086_j7172595384347_1_alg».proof.Proof.Gen.KernelIdeal.Frame
import proofs.«141086_j7172595384347_1_alg».proof.Proof.LibHiddenLayer
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat)
open Cert.KernelIdeal Cert.KernelIdeal.Gen Cert.Product

-- the region's entry contents: any
variable (V : (c : Dev nD) → (b : Ref sig .tc) → Buf (Elt Ideal) ((c : Thread nD τ).loc b))

theorem zero_off : (![0, 0] : Fin 2 → Nat) = fun _ => 0 := funext fun a => by fin_cases a <;> rfl

/-- The body's product contracts the left operand's columns with the right operand's rows. -/
theorem plain : PlainDot.IsPlain dot_S2000x256_S256x256_S2000x256_1_0_0_1_n_n := ⟨rfl, rfl, rfl, rfl, rfl, rfl⟩

/-- A 1 × 256 row read as a vector of length 256. -/
abbrev vecOf (row : S1x256.Idx → EReal) : S256.Idx → EReal := fun j => row (ix2 (0 : Fin 1) (j 0))

/-- The body's payload is the layer of its three loaded blocks. -/
theorem pay_eq (x0 : Vec Ideal S2000x256 .f32) (x1 : Vec Ideal S1x256 .f32) (x2 : Vec Ideal S256x256 .bf16) :
    k2_pay1 x0 x1 x2 = mm (M := 2000) (K := 256) (N := 256) (Layer.hidden x0 (vecOf x1)) x2 := by
  unfold k2_pay1
  dsimp only
  rw [shapeCast_self, shapeCast_self, shapeCast_self]
  refine (matmul_zero_eq plain none _ x2).trans ?_
  show mm (M := 2000) (K := 256) (N := 256) (maximumf (addf x0 (broadcastTo S2000x256 x1 broadcasts_S1x256_S2000x256))
      (broadcast S2000x256 (Scalar.ofBits (F := Ideal) .f32 0x00000000#32))) x2 = _
  rw [Layer.hidden_unit x0 x1 (vecOf x1) (fun c => rfl) broadcasts_S1x256_S2000x256]

/-- The printed index maps over the grid: the features' block and the output's block are block row t, the bias
    row's and the weight matrix's blocks are the whole arrays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block row is some point's. -/
theorem idx_onto : ∀ q : Fin 25, ∃ t : Fin cfg2.N, t.val = q.val :=
  (by decide +kernel : ∀ q : Fin 25, ∃ t : Fin grid2.N, t.val = q.val)

/-- The layer of the region's three input arrays. -/
abbrev whole (c : Dev nD) : S50000x256.Idx → EReal :=
  mm (M := 50000) (K := 256) (N := 256) (Layer.hidden (V c main_v61) (vecOf (V c main_v62))) (V c main_v34)

/-- WHAT POINT t WRITES BACK is block t of the layer of the whole arrays. -/
theorem flushed_eq (c : Dev nD) (t : Fin cfg2.N) :
    (dat2 V c).flushed 3 t = ((cfg2.win 3).blk t).view.read (Elt Ideal) (whole V c) := by
  show (cfg2.win 3).cut (grid2.coords t) ((dat2 V c).after 3 t) = _
  rw [after2_3]
  unfold out2_3
  rw [View.canon_unit_zero zero_off]
  simp only [View.ld_unit_zero (S := S2000x256) zero_off, View.ld_unit_zero (S := S1x256) zero_off,
    View.ld_unit_zero (S := S256x256) zero_off]
  rw [pay_eq]
  obtain ⟨e0, e1, e2, e3, e4, e5, e6, e7⟩ := idx_facts t
  funext j
  show mm (M := 2000) (K := 256) (N := 256) (Layer.hidden (iblk2 V c 0 t) (vecOf (iblk2 V c 1 t))) (iblk2 V c 2 t) j
    = mm (M := 50000) (K := 256) (N := 256) (Layer.hidden (V c main_v61) (vecOf (V c main_v62))) (V c main_v34)
        (((cfg2.win 3).blk t).view.emb j)
  refine mm_eq_of_row_col _ _ _ _ j _ (fun q => ?_) (fun q => ?_)
  · refine Layer.hidden_congr _ _ _ _ (j 0) ((((cfg2.win 3).blk t).view.emb j) 0) q ?_ ?_
    · show V c main_v61 (((cfg2.win 0).blk t).view.emb (ix2 (j 0) q)) = V c main_v61 (ix2 ((((cfg2.win 3).blk t).view.emb j) 0) q)
      refine congrArg _ (funext fun a => Fin.ext ?_)
      match a with
      | ⟨0, _⟩ => show win2_0.index t (0 : Fin 2) * 2000 + 1 * (j 0).val = win2_3.index t (0 : Fin 2) * 2000 + 1 * (j 0).val; omega
      | ⟨1, _⟩ => show win2_0.index t (1 : Fin 2) * 256 + 1 * q.val = q.val; omega
    · show V c main_v62 (((cfg2.win 1).blk t).view.emb (ix2 (0 : Fin 1) q)) = V c main_v62 (ix2 (0 : Fin 1) q)
      refine congrArg _ (funext fun a => Fin.ext ?_)
      match a with
      | ⟨0, _⟩ => show win2_1.index t (0 : Fin 2) * 1 + 1 * 0 = 0; omega
      | ⟨1, _⟩ => show win2_1.index t (1 : Fin 2) * 256 + 1 * q.val = q.val; omega
  · show V c main_v34 (((cfg2.win 2).blk t).view.emb (ix2 q (j 1))) = V c main_v34 (ix2 q ((((cfg2.win 3).blk t).view.emb j) 1))
    refine congrArg _ (funext fun a => Fin.ext ?_)
    match a with
    | ⟨0, _⟩ => show win2_2.index t (0 : Fin 2) * 256 + 1 * q.val = q.val; omega
    | ⟨1, _⟩ => show win2_2.index t (1 : Fin 2) * 256 + 1 * (j 1).val = win2_3.index t (1 : Fin 2) * 256 + 1 * (j 1).val; omega

/-- An index of the output is in point t's block iff each coordinate is in the block's range on its axis. -/
theorem mem_blk (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v63).slice (win2_3.rect t)).set ↔ _
  rw [View.set_slice_whole, Rect.mem_set_unit]
  exact Iff.rfl

/-- The 25 blocks of 2000 rows cover the output: row r is in block r / 2000. -/
theorem cover (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ := idx_onto ⟨(i 0).val / 2000, by omega⟩
  have ht' : t.val = (i 0).val / 2000 := ht
  obtain ⟨e0, e1, e2, e3, e4, e5, e6, e7⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- THE OUTPUT ARRAY after the region: the layer of the three input arrays as the region found them. -/
theorem final (c : Dev nD) : (dat2 V c).arrAt 3 cfg2.N = whole V c :=
  (dat2 V c).arrAt_eq_of_cover 3 (whole V c) (fun t _ => flushed_eq V c t) (cover)

end Cert.KernelIdeal.Region2

end
-- ==== Proof.Stage3.lean ====
/-
  The third layer and the head of the idealized kernel against the reference's.

  Region 2 leaves relu(a + b2) · W3 in its output, a the second layer's aggregated features: the reference's third
  product (the same argument as for the second layer). Everything after it — the last aggregation, the bias, the
  per-graph sums and counts, the quotient, the linear head — is the reference's, operation for operation, on equal
  operands: the result array is the reference's result.
-/
import proofs.«141086_j7172595384347_1_alg».proof.Proof.Stage2
import proofs.«141086_j7172595384347_1_alg».proof.Proof.Region2Value

set_option maxRecDepth 16384

noncomputable section

namespace Cert.KernelIdeal.Walk

open Idealize.ShloMosaic Idealize.ShloMosaic.TcCoe Idealize.ShloMosaic.StableHlo Idealize.ShloMosaic.ValueIdx Idealize.SL.Sem
open Cert.KernelIdeal Cert.KernelIdeal.Gen Cert.HostWalk Cert.ReferenceIdeal.ReadP

variable (m : (ℓ : Loc nD τ sig) → Buf (Elt Ideal) ℓ) (ρ : Dev nD → PrngReg) (c : Dev nD)

/-- After region 2 its output holds the reference's third product. -/
theorem w8_v63 : W8 m ρ c (Proc.devRef .tc main_v63)
    = val_main_v66 (F := Ideal) (A0 m c) (A1 m c) (A2 m c) (A3 m c) (A4 m c) (A5 m c) (A9 m c) := by
  refine (W8_arr m ρ c 3).trans ((Region2.final (V7 m ρ) c).trans ?_)
  show Product.mm (M := 50000) (K := 256) (N := 256)
    (Layer.hidden (V7 m ρ c main_v61) (Region2.vecOf (V7 m ρ c main_v62))) (V7 m ρ c main_v34) = _
  rw [show V7 m ρ c main_v61 = val_main_v61 (F := Ideal) (A0 m c) (A1 m c) (A2 m c) (A3 m c) (A9 m c) from w7_v61 m ρ c,
    show V7 m ρ c main_v62 = shapeCast S1x256 (A4 m c) shapeCasts_S256_S1x256 from w7_v62 m ρ c,
    show V7 m ρ c main_v34 = A5 m c from k7_v34 m ρ c]
  exact layer_eq _ (A4 m c) (A5 m c)

/-- THE RESULT: the last boundary's contents at the result buffer are the reference's result, as a function of the
    argument arrays. -/
theorem result_eq : W9 m ρ c (Proc.devRef .tc main_v94)
    = val_main_v98 (F := Ideal) (A0 m c) (A1 m c) (A2 m c) (A3 m c) (A4 m c) (A5 m c) (A6 m c) (A7 m c) (A8 m c)
        (A9 m c) (A10 m c) := by
  walk_back [W9, hostOps3, w8_v63 m ρ c, k8_v3 m ρ c, k8_v6 m ρ c, k8_v30 m ρ c, k8_arg6 m ρ c, k8_arg7 m ρ c,
    k8_arg8 m ρ c, k8_arg10 m ρ c] <;> rfl

end Cert.KernelIdeal.Walk

end
-- ==== Proof.lean ====
/-
  A three-layer graph convolution network with mean pooling and a linear head: the kernel against its reference,
  equal on the extended reals.

  Both programs compute, from the edge list, the source and target index vectors (edges plus self-loops) and the
  symmetric edge weights d[src]·d[dst]; then three times: transform the node features by a weight matrix, gather the
  transformed rows at the sources, scale by the edge weights, scatter-add into the targets, add a bias (and, after
  the first two layers, rectify); then the per-graph mean and a linear map. The reference transforms with one
  dot_general per layer. The kernel transforms in three pipelined regions of 25 blocks of 2000 rows each, the
  operands in a narrower float format (the identity on the extended reals), the second and third region also adding
  the previous layer's bias and rectifying before they multiply. Every other operation is the same in both
  programs, in the same order.

  The proof: a region's output array ends holding the whole-array product (Region0Value) or hidden layer
  (Region1Value, Region2Value) of the arrays it was entered with, because an entry of a product reads one row of its
  left operand and the row blocks tile the output; these are the reference's dot_generals of equal operands
  (Stage1, Stage2, Stage3, over LibHiddenLayer, LibWholeProduct, LibLayerOps); what outlives a region still holds what it was
  given (Kept); so the kernel's result buffer ends at the reference's result as a function of the arguments
  (Stage3's `result_eq`). The frames: the two kernel programs' are the generated frame certificates; the
  reference's is its run with the result dropped. No rewrite was applied in idealizing the kernel, so the
  idealization claim is trivial. No finiteness of the inputs is used.
-/
import proofs.«141086_j7172595384347_1_alg».proof.Defs
import proofs.«141086_j7172595384347_1_alg».proof.Proof.Gen.Kernel
import proofs.«141086_j7172595384347_1_alg».proof.Proof.Gen.Kernel.Frame
import proofs.«141086_j7172595384347_1_alg».proof.Proof.Gen.KernelIdeal
import proofs.«141086_j7172595384347_1_alg».proof.Proof.Gen.KernelIdeal.Frame
import proofs.«141086_j7172595384347_1_alg».proof.Proof.Gen.ReferenceIdeal
import proofs.«141086_j7172595384347_1_alg».proof.Proof.Gen.Pre_finite_inputs
import proofs.«141086_j7172595384347_1_alg».proof.Proof.RunP
import proofs.«141086_j7172595384347_1_alg».proof.Proof.ReadP
import proofs.«141086_j7172595384347_1_alg».proof.Proof.KernelRun
import proofs.«141086_j7172595384347_1_alg».proof.Proof.Stage3
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the reference's result function of the (agreeing) argument arrays in their result
    buffers, the arguments unchanged. -/
theorem algebraic : Cert.algebraic_KernelIdeal_ReferenceIdeal := by
  intro m ρ m' ρ' _ hagree
  refine ⟨fun c => Cert.ReferenceIdeal.ReadP.val_main_v98 (F := Ideal) (Cert.KernelIdeal.Walk.A0 m c)
      (Cert.KernelIdeal.Walk.A1 m c) (Cert.KernelIdeal.Walk.A2 m c) (Cert.KernelIdeal.Walk.A3 m c)
      (Cert.KernelIdeal.Walk.A4 m c) (Cert.KernelIdeal.Walk.A5 m c) (Cert.KernelIdeal.Walk.A6 m c)
      (Cert.KernelIdeal.Walk.A7 m c) (Cert.KernelIdeal.Walk.A8 m c) (Cert.KernelIdeal.Walk.A9 m c)
      (Cert.KernelIdeal.Walk.A10 m c), ?_, ?_⟩
  · exact (θ_run Cert.KernelIdeal.defs _ _).mono
      (fun r h c => ⟨(h c).1.trans (Cert.KernelIdeal.Walk.result_eq m ρ c), (h c).2⟩)
      (Cert.KernelIdeal.RunAll.run_result (F := Ideal) m ρ)
  · refine (θ_run Cert.ReferenceIdeal.defs _ _).mono (fun r h c => ⟨?_, (h c).2⟩)
      (Cert.ReferenceIdeal.ValueP.run (F := Ideal) m' ρ')
    obtain ⟨a0, a1, a2, a3, a4, a5, a6, a7, a8, a9, a10⟩ := hagree c
    rw [(h c).1, Cert.ReferenceIdeal.ReadP.val_main_v98_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
